-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S4096x1024 .f32) (main_arg2 : FVec F S4096 .f32) (main_arg3 : FVec F S1024x4096 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S4x2048x1024 : Shape := ⟨3, ![4, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S8192x1024 : Shape := ⟨2, ![8192, 1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S8192x1024, .f32⟩
  | .hbm, ⟨6, _⟩ => ⟨S8192x1024, .bf16⟩
  | .hbm, ⟨7, _⟩ => ⟨S4096x1024, .bf16⟩
  | .hbm, ⟨8, _⟩ => ⟨S1024x4096, .bf16⟩
  | .hbm, ⟨9, _⟩ => ⟨S1x4096, .f32⟩
  | .hbm, ⟨10, _⟩ => ⟨S1x1024, .f32⟩
  | .hbm, ⟨11, _⟩ => ⟨S8192x1024, .f32⟩
  | .hbm, ⟨12, _⟩ => ⟨S4x2048x1024, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S1x4096, .f32⟩
  | .local _ .vmem, ⟨4, _⟩ => ⟨S1024x4096, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x1024_S8192x1024 : S4x2048x1024.ShapeCasts S8192x1024
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S8192x1024_S4x2048x1024 : S8192x1024.ShapeCasts S4x2048x1024
  dot_S256x1024_S4096x1024_S256x4096_1_1_0_0_n_n_wf : DotDims.WF S256x1024 S4096x1024 S256x4096 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S4x2048x4096 : Shape := ⟨3, ![4, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S_, .f32⟩
  | .hbm, ⟨15, _⟩ => ⟨S4x2048x4096, .f32⟩
  | .hbm, ⟨16, _⟩ => ⟨S4x2048x4096, .f32⟩
  | .hbm, ⟨17, _⟩ => ⟨S_, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S4096x1024_S4x2048x4096_2_1_01_0_n_n_wf : DotDims.WF S4x2048x1024 S4096x1024 S4x2048x4096 [2] [1] [0, 1] [0] [] []
  dot_S4x2048x4096_S1024x4096_S4x2048x1024_2_1_01_0_n_n_wf : DotDims.WF S4x2048x4096 S1024x4096 S4x2048x1024 [2] [1] [0, 1] [0] [] []

variable [Facts₀]

def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf

class Facts : Prop extends Facts₀ where

variable [Facts]
-- ==== Proof.Gate.lean ====
/-
  The pointwise mathematics of the feed-forward block with a cubic-polynomial sigmoid, on the extended reals.

  For a row `x` of the activations, weights `w1`, `w2` and biases `b1`, `b2`, the hidden value at feature `f` is
  `h f = (∑ k, x k * w1 f k) + b1 f`, the gated value is `h f * σ (h f)` for the cubic `σ h = 1/2 + h/4 + c h³`, and the
  output at column `d` is `(∑ f, gate (h f) * w2 d f) + b2 d`.  The cubic is written in two ways: in Horner form,
  `1/2 + h * (1/4 + c * (h * h))`, and expanded, `(1/2 + 1/4 * h) + c * ((h * h) * h)`.  On the real numbers the two are
  equal by distributivity; on the extended reals distributivity fails at the infinities, so the equality is proved
  for a REAL hidden value, and the hidden value is real whenever the row, the first weights and the first bias are.
  The three coefficients stay the values of their binary words; all that is used of them is that they are real numbers.
-/
import Idealize.ShloMosaic.PureOps.Ideal

noncomputable section

open scoped BigOperators

namespace Cert.Gate

open Idealize.ShloMosaic

/-- An extended real that is a real number. -/
def IsReal (a : EReal) : Prop := ∃ r : ℝ, a = (r : EReal)

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- An f32 word whose exponent field is not all ones denotes a real number. -/
theorem isReal_ofBits_f32 (w : BitVec 32) (h : (w.extractLsb' 23 8).toNat ≠ 2 ^ 8 - 1) : IsReal (Ideal.ofBits .f32 w) := by
  show IsReal (Ideal.ieee 8 23 w)
  unfold Ideal.ieee
  simp only []
  rw [if_neg h]
  split
  · exact ⟨_, rfl⟩
  · exact ⟨_, rfl⟩

/-- The cubic's coefficients: the values of the words for 1/4, 1/2 and the cubic coefficient. -/
def cQ : EReal := Ideal.ofBits .f32 0x3E800000#32
def cH : EReal := Ideal.ofBits .f32 0x3F000000#32
def cC : EReal := Ideal.ofBits .f32 0xBCAA64C3#32

theorem cQ_real : IsReal cQ := isReal_ofBits_f32 _ (by decide)
theorem cH_real : IsReal cH := isReal_ofBits_f32 _ (by decide)
theorem cC_real : IsReal cC := isReal_ofBits_f32 _ (by decide)

/-- The gated value with the cubic in Horner form. -/
def gateK (h : EReal) : EReal := h * (cH + h * (cQ + cC * (h * h)))
/-- The gated value with the cubic expanded. -/
def gateR (h : EReal) : EReal := h * ((cH + cQ * h) + cC * ((h * h) * h))

/-- On a real hidden value the two forms agree. -/
theorem gate_eq {h : EReal} (hh : IsReal h) : gateK h = gateR h := by
  obtain ⟨r, rfl⟩ := hh
  obtain ⟨q, hq⟩ := cQ_real
  obtain ⟨a, ha⟩ := cH_real
  obtain ⟨c, hc⟩ := cC_real
  unfold gateK gateR
  rw [hq, ha, hc]
  simp only [← EReal.coe_mul, ← EReal.coe_add]
  exact congrArg _ (by ring)

/-- The hidden value of a row at a feature. -/
def hidden (x : Fin 1024 → EReal) (w1 : Fin 4096 → Fin 1024 → EReal) (b1 : Fin 4096 → EReal) (f : Fin 4096) : EReal :=
  (∑ k : Fin 1024, x k * w1 f k) + b1 f

theorem hidden_real (x : Fin 1024 → EReal) (w1 : Fin 4096 → Fin 1024 → EReal) (b1 : Fin 4096 → EReal)
    (hx : ∀ k, IsReal (x k)) (hw : ∀ f k, IsReal (w1 f k)) (hb : ∀ f, IsReal (b1 f)) (f : Fin 4096) :
    IsReal (hidden x w1 b1 f) :=
  (IsReal.sum _ _ fun k _ => (hx k).mul (hw f k)).add (hb f)

/-- A row's output at a column, the cubic in Horner form. -/
def rowOutK (x : Fin 1024 → EReal) (w1 : Fin 4096 → Fin 1024 → EReal) (b1 : Fin 4096 → EReal)
    (w2 : Fin 1024 → Fin 4096 → EReal) (b2 : Fin 1024 → EReal) (d : Fin 1024) : EReal :=
  (∑ f : Fin 4096, gateK (hidden x w1 b1 f) * w2 d f) + b2 d

/-- A row's output at a column, the cubic expanded. -/
def rowOutR (x : Fin 1024 → EReal) (w1 : Fin 4096 → Fin 1024 → EReal) (b1 : Fin 4096 → EReal)
    (w2 : Fin 1024 → Fin 4096 → EReal) (b2 : Fin 1024 → EReal) (d : Fin 1024) : EReal :=
  (∑ f : Fin 4096, gateR (hidden x w1 b1 f) * w2 d f) + b2 d

/-- With a real row, real first weights and a real first bias the two outputs agree (whatever the second layer holds). -/
theorem rowOut_eq (x : Fin 1024 → EReal) (w1 : Fin 4096 → Fin 1024 → EReal) (b1 : Fin 4096 → EReal)
    (w2 : Fin 1024 → Fin 4096 → EReal) (b2 : Fin 1024 → EReal) (d : Fin 1024)
    (hx : ∀ k, IsReal (x k)) (hw : ∀ f k, IsReal (w1 f k)) (hb : ∀ f, IsReal (b1 f)) :
    rowOutK x w1 b1 w2 b2 d = rowOutR x w1 b1 w2 b2 d := by
  unfold rowOutK rowOutR
  exact congrArg (· + b2 d) (Finset.sum_congr rfl fun f _ => by rw [gate_eq (hidden_real x w1 b1 hx hw hb f)])

end Cert.Gate

end
-- ==== Proof.Payload.lean ====
/-
  The kernel body's arithmetic, read at an index of the output block.

  At a grid point the body holds a block of 256 rows of the activations, the whole first weights, the first bias as a
  one-row matrix, the whole second weights and the second bias as a one-row matrix.  It contracts each row with the rows of
  the first weights, adds the bias row, applies the gate with the cubic in HORNER form, contracts with the rows of the
  second weights and adds the second bias row.  Hence at `(p, q)` of the block the stored value is the row formula
  `rowOutK` of row `p` of the activations' block at column `q`.  The two matrix products are sums over the one contracted
  axis (both operands are contracted on their last axis), a one-row matrix broadcast over the rows reads its column,
  a change of float format is the identity on the extended reals, and the pointwise operations are the extended
  reals' own.
-/
import proofs.«179783_j70214125355102_2_alg».proof.Proof.Gen.KernelIdeal.Skeleton
import proofs.«179783_j70214125355102_2_alg».proof.Proof.Gate
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Gate

/-- The dimension numbers of the first product: rows of a [256, 1024] block against rows of the [4096, 1024] weights. -/
abbrev D1 : DotDims S256x1024 S4096x1024 S256x4096 := dot_S256x1024_S4096x1024_S256x4096_1_1_0_0_n_n
/-- The dimension numbers of the second product: rows of the [256, 4096] gated values against rows of the [1024, 4096] weights. -/
abbrev D2 : DotDims S256x4096 S1024x4096 S256x1024 := dot_S256x4096_S1024x4096_S256x1024_1_1_0_0_n_n

/-- The first product's operand indices on their uncontracted axes: the output's row, and the output's column. -/
theorem lhs1_0 (i : S256x4096.Idx) (r : D1.contr.Idx) : (D1.lhsIdx i r 0).val = (i 0).val := by
  unfold DotDims.lhsIdx
  rw [dif_neg (show ¬(0 : Fin S256x1024.rank) ∈ D1.lhsBatch by decide), dif_pos (show (0 : Fin S256x1024.rank) ∈ D1.lhsNonContracting by decide)]
  rfl
theorem rhs1_0 (i : S256x4096.Idx) (r : D1.contr.Idx) : (D1.rhsIdx i r 0).val = (i 1).val := by
  unfold DotDims.rhsIdx
  rw [dif_neg (show ¬(0 : Fin S4096x1024.rank) ∈ D1.rhsBatch by decide), dif_pos (show (0 : Fin S4096x1024.rank) ∈ D1.rhsNonContracting by decide)]
  rfl
/-- The same of the second product. -/
theorem lhs2_0 (i : S256x1024.Idx) (r : D2.contr.Idx) : (D2.lhsIdx i r 0).val = (i 0).val := by
  unfold DotDims.lhsIdx
  rw [dif_neg (show ¬(0 : Fin S256x4096.rank) ∈ D2.lhsBatch by decide), dif_pos (show (0 : Fin S256x4096.rank) ∈ D2.lhsNonContracting by decide)]
  rfl
theorem rhs2_0 (i : S256x1024.Idx) (r : D2.contr.Idx) : (D2.rhsIdx i r 0).val = (i 1).val := by
  unfold DotDims.rhsIdx
  rw [dif_neg (show ¬(0 : Fin S1024x4096.rank) ∈ D2.rhsBatch by decide), dif_pos (show (0 : Fin S1024x4096.rank) ∈ D2.rhsNonContracting by decide)]
  rfl

/-- The first product at `(p, f)`: the sum over `k` of the left operand at `(p, k)` times the right at `(f, k)`. -/
theorem matmul1_apply (a : FVec Ideal S256x1024 .bf16) (b : FVec Ideal S4096x1024 .bf16) (p : Fin 256) (f : Fin 4096) :
    matmul D1 none a b (constant S256x4096 .f32 0x00000000#32) (ix2 p f) = ∑ k : Fin 1024, a (ix2 p k) * b (ix2 f k) := by
  simp only [matmul]
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 p f) ((contrEquiv1 D1 1024 rfl rfl).symm k) = ix2 p k := funext fun ax => Fin.ext (by
    match ax with
    | ⟨0, _⟩ => exact lhs1_0 _ _
    | ⟨1, _⟩ => exact (D1.lhsIdx_val_of_single rfl _ _).trans hk)
  have er : D1.rhsIdx (ix2 p f) ((contrEquiv1 D1 1024 rfl rfl).symm k) = ix2 f k := funext fun ax => Fin.ext (by
    match ax with
    | ⟨0, _⟩ => exact rhs1_0 _ _
    | ⟨1, _⟩ => exact (D1.rhsIdx_val_of_single rfl _ _).trans hk)
  rw [el, er]

/-- The second product at `(p, q)`: the sum over `f` of the left operand at `(p, f)` times the right at `(q, f)`. -/
theorem matmul2_apply (a : FVec Ideal S256x4096 .bf16) (b : FVec Ideal S1024x4096 .bf16) (p : Fin 256) (q : Fin 1024) :
    matmul D2 none a b (constant S256x1024 .f32 0x00000000#32) (ix2 p q) = ∑ f : Fin 4096, a (ix2 p f) * b (ix2 q f) := by
  simp only [matmul]
  rw [Ideal.matmul_constant_zero_apply, ← Equiv.sum_comp (contrEquiv1 D2 4096 rfl rfl).symm]
  refine Finset.sum_congr rfl fun k _ => ?_
  have hk := contrEquiv1_symm_val D2 4096 rfl rfl k
  have el : D2.lhsIdx (ix2 p q) ((contrEquiv1 D2 4096 rfl rfl).symm k) = ix2 p k := funext fun ax => Fin.ext (by
    match ax with
    | ⟨0, _⟩ => exact lhs2_0 _ _
    | ⟨1, _⟩ => exact (D2.lhsIdx_val_of_single rfl _ _).trans hk)
  have er : D2.rhsIdx (ix2 p q) ((contrEquiv1 D2 4096 rfl rfl).symm k) = ix2 q k := funext fun ax => Fin.ext (by
    match ax with
    | ⟨0, _⟩ => exact rhs2_0 _ _
    | ⟨1, _⟩ => exact (D2.rhsIdx_val_of_single rfl _ _).trans hk)
  rw [el, er]

/-- The hidden block at `(p, f)`: row `p` contracted with row `f` of the first weights, plus the bias row at `f`. -/
theorem hidden_apply (a : FVec Ideal S256x1024 .bf16) (b : FVec Ideal S4096x1024 .bf16) (c : FVec Ideal S1x4096 .f32)
    (p : Fin 256) (f : Fin 4096) :
    addf (matmul D1 none a b (constant S256x4096 .f32 0x00000000#32)) (broadcastTo S256x4096 c broadcasts_S1x4096_S256x4096) (ix2 p f)
      = hidden (fun k => a (ix2 p k)) (fun f k => b (ix2 f k)) (fun f => c (ix2 (0 : Fin 1) f)) f := by
  rw [addf_apply, matmul1_apply, broadcastTo_1b_ab_apply]
  rfl

/-- The gate on the hidden block: the Horner cubic, and the rounding to a shorter format the identity. -/
theorem gate_apply (h : FVec Ideal S256x4096 .f32) (j : S256x4096.Idx) :
    truncf .bf16 (mulf h (addf (broadcast S256x4096 (Scalar.ofBits .f32 0x3F000000#32))
      (mulf h (addf (broadcast S256x4096 (Scalar.ofBits .f32 0x3E800000#32))
        (mulf (broadcast S256x4096 (Scalar.ofBits .f32 0xBCAA64C3#32)) (mulf h h)))))) bitsLt_bf16_f32 j = gateK (h j) := rfl

/-- The stored block at `(p, q)` is the Horner-form row formula of row `p` of the activations' block at column `q`. -/
theorem pay_apply (x0 : Vec Ideal S256x1024 .bf16) (x1 : Vec Ideal S4096x1024 .bf16) (x2 : Vec Ideal S1x4096 .f32)
    (x3 : Vec Ideal S1024x4096 .bf16) (x4 : Vec Ideal S1x1024 .f32) (p : Fin 256) (q : Fin 1024) :
    k0_pay1 (F := Ideal) x0 x1 x2 x3 x4 (ix2 p q)
      = rowOutK (fun k => x0 (ix2 p k)) (fun f k => x1 (ix2 f k)) (fun f => x2 (ix2 (0 : Fin 1) f))
          (fun d f => x3 (ix2 d f)) (fun d => x4 (ix2 (0 : Fin 1) d)) q := by
  unfold k0_pay1
  simp only [shapeCast_self]
  rw [addf_apply, matmul2_apply, broadcastTo_1b_ab_apply]
  unfold rowOutK
  refine congrArg (· + x4 (ix2 (0 : Fin 1) q)) (Finset.sum_congr rfl fun f _ => ?_)
  refine congrArg (· * x3 (ix2 q f)) ?_
  exact (gate_apply _ (ix2 p f)).trans (congrArg gateK (hidden_apply x0 x1 x2 p f))

end Cert.KernelIdeal.Pay

end
-- ==== Proof.Blocks.lean ====
/-
  From the blocks the grid points write back to the region's whole output array.

  The grid has 32 points; point `t` stages rows `256 t … 256 t + 255` of the flattened activations, the whole of both
  weight matrices and both bias rows, and writes back rows `256 t … 256 t + 255` of the output.  By the payload read at
  an index, what point `t` writes back is block `t` of ONE function of the arrays the region finds: at `(r, d)` the
  Horner-form row formula of row `r` of the flattened activations at column `d`.  The 32 blocks tile the 8192 rows (row
  `r` lies in block `r / 256`), so the output array ends holding that function.
-/
import proofs.«179783_j70214125355102_2_alg».proof.Proof.Gen.KernelIdeal.Frame
import proofs.«179783_j70214125355102_2_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Gate

variable (m : (ℓ : Loc nD τ sig) → Buf (Elt Ideal) ℓ)

theorem hz : (![0, 0] : Fin 2 → Nat) = fun _ => 0 := funext fun a => by fin_cases a <;> rfl

/-- The region's output array as one function of the arrays it finds: at `(r, d)` the Horner-form row formula of row `r`
    of the flattened activations at column `d`. -/
def regionOut (c : Dev nD) : S8192x1024.Idx → EReal := fun i =>
  rowOutK (fun k => V m c main_v1 (ix2 (i 0 : Fin 8192) k)) (fun f k => V m c main_v2 (ix2 f k))
    (fun f => V m c main_v4 (ix2 (0 : Fin 1) f)) (fun d f => V m c main_v3 (ix2 d f))
    (fun d => V m c main_v5 (ix2 (0 : Fin 1) d)) (i 1 : Fin 1024)

/-- The printed index maps over the grid: the activations' block moves with the output's, down the rows; every other
    input is its whole array at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the activations' block at point `t` is row `256 t + p` of the flattened activations. -/
theorem blk_x (c : Dev nD) (t : Fin cfg0.N) (p : Fin 256) (k : Fin 1024) (r : Fin 8192) (hr : r.val = t.val * 256 + p.val) :
    iblk m c 0 t (ix2 p k) = V m c main_v1 (ix2 r k) := by
  obtain ⟨e00, e01, -⟩ := idx_facts t
  show V m c main_v1 (((cfg0.win 0).blk t).view.emb (ix2 p k)) = V m c main_v1 (ix2 r k)
  refine congrArg (V m c main_v1) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- The first weights' block is the whole matrix. -/
theorem blk_w1 (c : Dev nD) (t : Fin cfg0.N) (f : Fin 4096) (k : Fin 1024) :
    iblk m c 1 t (ix2 f k) = V m c main_v2 (ix2 f k) := by
  obtain ⟨-, -, e10, e11, -⟩ := idx_facts t
  show V m c main_v2 (((cfg0.win 1).blk t).view.emb (ix2 f k)) = V m c main_v2 (ix2 f k)
  refine congrArg (V m c main_v2) (funext fun a => Fin.ext ?_)
  match a with
  | ⟨0, _⟩ => show win0_1.index t (0 : Fin 2) * 4096 + 1 * f.val = f.val; omega
  | ⟨1, _⟩ => show win0_1.index t (1 : Fin 2) * 1024 + 1 * k.val = k.val; omega

/-- The first bias row's block is the whole row. -/
theorem blk_b1 (c : Dev nD) (t : Fin cfg0.N) (f : Fin 4096) :
    iblk m c 2 t (ix2 (0 : Fin 1) f) = V m c main_v4 (ix2 (0 : Fin 1) f) := by
  obtain ⟨-, -, -, -, e20, e21, -⟩ := idx_facts t
  show V m c main_v4 (((cfg0.win 2).blk t).view.emb (ix2 (0 : Fin 1) f)) = V m c main_v4 (ix2 (0 : Fin 1) f)
  refine congrArg (V m c main_v4) (funext fun a => Fin.ext ?_)
  match a with
  | ⟨0, _⟩ => show win0_2.index t (0 : Fin 2) * 1 + 1 * 0 = 0; omega
  | ⟨1, _⟩ => show win0_2.index t (1 : Fin 2) * 4096 + 1 * f.val = f.val; omega

/-- The second weights' block is the whole matrix. -/
theorem blk_w2 (c : Dev nD) (t : Fin cfg0.N) (d : Fin 1024) (f : Fin 4096) :
    iblk m c 3 t (ix2 d f) = V m c main_v3 (ix2 d f) := by
  obtain ⟨-, -, -, -, -, -, e30, e31, -⟩ := idx_facts t
  show V m c main_v3 (((cfg0.win 3).blk t).view.emb (ix2 d f)) = V m c main_v3 (ix2 d f)
  refine congrArg (V m c main_v3) (funext fun a => Fin.ext ?_)
  match a with
  | ⟨0, _⟩ => show win0_3.index t (0 : Fin 2) * 1024 + 1 * d.val = d.val; omega
  | ⟨1, _⟩ => show win0_3.index t (1 : Fin 2) * 4096 + 1 * f.val = f.val; omega

/-- The second bias row's block is the whole row. -/
theorem blk_b2 (c : Dev nD) (t : Fin cfg0.N) (d : Fin 1024) :
    iblk m c 4 t (ix2 (0 : Fin 1) d) = V m c main_v5 (ix2 (0 : Fin 1) d) := by
  obtain ⟨-, -, -, -, -, -, -, -, e40, e41, -⟩ := idx_facts t
  show V m c main_v5 (((cfg0.win 4).blk t).view.emb (ix2 (0 : Fin 1) d)) = V m c main_v5 (ix2 (0 : Fin 1) d)
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 1024 + 1 * d.val = d.val; omega

/-- What point `t` writes back is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero hz]
  simp only [View.ld_unit_zero (S := S256x1024) hz, View.ld_unit_zero (S := S4096x1024) hz,
    View.ld_unit_zero (S := S1x4096) hz, View.ld_unit_zero (S := S1024x4096) hz, View.ld_unit_zero (S := S1x1024) hz]
  have ht : t.val < 32 := lt_of_lt_of_eq t.isLt N_0
  obtain ⟨-, -, -, -, -, -, -, -, -, -, e50, e51⟩ := idx_facts t
  funext j
  obtain ⟨p, q, rfl⟩ : ∃ (p : Fin 256) (q : Fin 1024), j = ix2 p q := ⟨j 0, j 1, eq_ix2 j⟩
  have he : ((cfg0.win 5).blk t).view.emb (ix2 p q) = ix2 (⟨t.val * 256 + p.val, by omega⟩ : Fin 8192) q :=
    funext fun a => Fin.ext (by
      match a with
      | ⟨0, _⟩ => show win0_5.index t (0 : Fin 2) * 256 + 1 * p.val = t.val * 256 + p.val; omega
      | ⟨1, _⟩ => show win0_5.index t (1 : Fin 2) * 1024 + 1 * q.val = q.val; omega)
  show k0_pay1 (F := Ideal) (iblk m c 0 t) (iblk m c 1 t) (iblk m c 2 t) (iblk m c 3 t) (iblk m c 4 t) (ix2 p q)
    = regionOut m c (((cfg0.win 5).blk t).view.emb (ix2 p q))
  rw [he]
  refine (Pay.pay_apply (iblk m c 0 t) (iblk m c 1 t) (iblk m c 2 t) (iblk m c 3 t) (iblk m c 4 t) p q).trans ?_
  show _ = rowOutK (fun k => V m c main_v1 (ix2 (⟨t.val * 256 + p.val, by omega⟩ : Fin 8192) k)) (fun f k => V m c main_v2 (ix2 f k))
    (fun f => V m c main_v4 (ix2 (0 : Fin 1) f)) (fun d f => V m c main_v3 (ix2 d f))
    (fun d => V m c main_v5 (ix2 (0 : Fin 1) d)) q
  rw [show (fun k => iblk m c 0 t (ix2 p k)) = fun k => V m c main_v1 (ix2 (⟨t.val * 256 + p.val, by omega⟩ : Fin 8192) k) from
        funext fun k => blk_x m c t p k _ rfl,
      show (fun f k => iblk m c 1 t (ix2 f k)) = fun f k => V m c main_v2 (ix2 f k) from
        funext fun f => funext fun k => blk_w1 m c t f k,
      show (fun f => iblk m c 2 t (ix2 (0 : Fin 1) f)) = fun f => V m c main_v4 (ix2 (0 : Fin 1) f) from
        funext fun f => blk_b1 m c t f,
      show (fun d f => iblk m c 3 t (ix2 d f)) = fun d f => V m c main_v3 (ix2 d f) from
        funext fun d => funext fun f => blk_w2 m c t d f,
      show (fun d => iblk m c 4 t (ix2 (0 : Fin 1) d)) = fun d => V m c main_v5 (ix2 (0 : Fin 1) d) from
        funext fun d => blk_b2 m c t d]

/-- An index of the output array is in point `t`'s block iff each coordinate is in the block's range on its axis. -/
theorem mem_blk (t : Fin cfg0.N) (i : S8192x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v6).slice (win0_5.rect t)).set ↔ _
  rw [View.set_slice_whole, Rect.mem_set_unit]
  exact Iff.rfl

/-- Every index of the output array is in the block of the point `r / 256`, which writes back. -/
theorem cover (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 256 < cfg0.N := lt_of_lt_of_eq (by omega : (i 0).val / 256 < 32) N_0.symm
  obtain ⟨-, -, -, -, -, -, -, -, -, -, e50, e51⟩ := idx_facts ⟨(i 0).val / 256, hN⟩
  have e50' : win0_5.index ⟨(i 0).val / 256, hN⟩ (0 : Fin 2) = (i 0).val / 256 := e50
  refine ⟨⟨(i 0).val / 256, hN⟩, flush0_5 _, ?_⟩
  rw [mem_blk]
  intro a
  match a with
  | ⟨0, _⟩ =>
    show win0_5.index ⟨(i 0).val / 256, hN⟩ (0 : Fin 2) * 256 ≤ (i 0).val
      ∧ (i 0).val < win0_5.index ⟨(i 0).val / 256, hN⟩ (0 : Fin 2) * 256 + 256
    omega
  | ⟨1, _⟩ =>
    show win0_5.index ⟨(i 0).val / 256, hN⟩ (1 : Fin 2) * 1024 ≤ (i 1).val
      ∧ (i 1).val < win0_5.index ⟨(i 0).val / 256, hN⟩ (1 : Fin 2) * 1024 + 1024
    omega

/-- The region's output array after the run. -/
theorem final (c : Dev nD) : (dats m 0 c).arrAt 5 cfg0.N = regionOut m c :=
  (dats m 0 c).arrAt_eq_of_cover 5 (regionOut m c) (fun t _ => flushed_eq m c t) cover

end Cert.KernelIdeal.Blocks

end
-- ==== Proof.Entry.lean ====
/-
  The arrays as the kernel's region finds them.

  Before the region the host flattens the activations `[4, 2048, 1024]` to `[8192, 1024]` (row `b * 2048 + s` is the row
  `(b, s)`), changes the float format of the activations and of the two weight matrices (the identity on the extended
  reals), and views each bias vector as a one-row matrix.  So, read at an index, each array the region stages is an
  argument array read at the corresponding index.
-/
import proofs.«179783_j70214125355102_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The flattened activations: the argument, reshaped. -/
theorem V_x (c : Dev nD) : V m c main_v1
    = fun i => shapeCast S8192x1024 (m ((c : Thread nD τ).loc main_arg0)) shapeCasts_S4x2048x1024_S8192x1024 i := by
  show StableHlo.after hostOps0 (fun b => m (c, b)) (Proc.devRef .tc main_v1) = _
  after_results
  rfl

/-- The first weights: the argument. -/
theorem V_w1 (c : Dev nD) : V m c main_v2 = fun i => m ((c : Thread nD τ).loc main_arg1) i := by
  show StableHlo.after hostOps0 (fun b => m (c, b)) (Proc.devRef .tc main_v2) = _
  after_results
  rfl

/-- The second weights: the argument. -/
theorem V_w2 (c : Dev nD) : V m c main_v3 = fun i => m ((c : Thread nD τ).loc main_arg3) i := by
  show StableHlo.after hostOps0 (fun b => m (c, b)) (Proc.devRef .tc main_v3) = _
  after_results
  rfl

/-- The first bias as a one-row matrix. -/
theorem V_b1 (c : Dev nD) : V m c main_v4
    = fun i => shapeCast S1x4096 (m ((c : Thread nD τ).loc main_arg2)) shapeCasts_S4096_S1x4096 i := by
  show StableHlo.after hostOps0 (fun b => m (c, b)) (Proc.devRef .tc main_v4) = _
  after_results
  rfl

/-- The second bias as a one-row matrix. -/
theorem V_b2 (c : Dev nD) : V m c main_v5
    = fun i => shapeCast S1x1024 (m ((c : Thread nD τ).loc main_arg4)) shapeCasts_S1024_S1x1024 i := by
  show StableHlo.after hostOps0 (fun b => m (c, b)) (Proc.devRef .tc main_v5) = _
  after_results
  rfl

/-- Row `b * 2048 + s` of the flattened activations is the row `(b, s)` of the argument. -/
theorem x_apply (c : Dev nD) (b : Fin 4) (s : Fin 2048) (k : Fin 1024) (r : Fin 8192) (hr : r.val = b.val * 2048 + s.val) :
    V m c main_v1 (ix2 r k) = m ((c : Thread nD τ).loc main_arg0) (ix3 b s k) := by
  rw [V_x]
  exact shapeCast_apply _ shapeCasts_S4x2048x1024_S8192x1024 (ix2 r k) (ix3 b s k) (by
    rw [Shape.rowMajor_val_three, Shape.rowMajor_val_two]
    show (b.val * 2048 + s.val) * 1024 + k.val = r.val * 1024 + k.val
    rw [hr])

theorem w1_apply (c : Dev nD) (f : Fin 4096) (k : Fin 1024) :
    V m c main_v2 (ix2 f k) = m ((c : Thread nD τ).loc main_arg1) (ix2 f k) := by
  rw [V_w1]

theorem w2_apply (c : Dev nD) (d : Fin 1024) (f : Fin 4096) :
    V m c main_v3 (ix2 d f) = m ((c : Thread nD τ).loc main_arg3) (ix2 d f) := by
  rw [V_w2]

/-- The one row of the bias matrix, at column `f`, is the bias at `f`. -/
theorem b1_apply (c : Dev nD) (f : Fin 4096) :
    V m c main_v4 (ix2 (0 : Fin 1) f) = m ((c : Thread nD τ).loc main_arg2) (ix1 f) := by
  rw [V_b1]
  exact shapeCast_a_1a_apply _ shapeCasts_S4096_S1x4096 (0 : Fin 1) f

theorem b2_apply (c : Dev nD) (d : Fin 1024) :
    V m c main_v5 (ix2 (0 : Fin 1) d) = m ((c : Thread nD τ).loc main_arg4) (ix1 d) := by
  rw [V_b2]
  exact shapeCast_a_1a_apply _ shapeCasts_S1024_S1x1024 (0 : Fin 1) d

end Cert.KernelIdeal.Entry

end
-- ==== Proof.KernelRun.lean ====
/-
  The kernel program's run, with its result named as a function of the arguments.

  After the region the host views the `[8192, 1024]` output as `[4, 2048, 1024]`: the entry `(b, s, d)` is the entry
  `(b * 2048 + s, d)`.  The region's output at `(r, d)` is the Horner-form row formula of row `r` of the flattened
  activations, and row `b * 2048 + s` of the flattened activations is the row `(b, s)` of the argument; the weights and
  biases the region stages are the arguments'.  So the program's result at `(b, s, d)` is the Horner-form row formula of
  the row `X[b, s, ·]` at column `d`, of the argument arrays.
-/
import proofs.«179783_j70214125355102_2_alg».proof.Proof.Blocks
import proofs.«179783_j70214125355102_2_alg».proof.Proof.Entry
import Idealize.ShloMosaic.Lib.StableHlo.Run

noncomputable section

namespace Cert.KernelIdeal.KRun

open Cert.KernelIdeal Cert.KernelIdeal.Gen Idealize.ShloMosaic Idealize.ShloMosaic.TcCoe Idealize.SL.Sem
open Idealize.ShloMosaic.StableHlo Idealize.ShloMosaic.ValueIdx Cert.Gate

/-- The result as a function of the argument arrays: at `(b, s, d)` the Horner-form row formula of the row `X[b, s, ·]`. -/
def kerOut (X : S4x2048x1024.Idx → EReal) (W1 : S4096x1024.Idx → EReal) (B1 : S4096.Idx → EReal)
    (W2 : S1024x4096.Idx → EReal) (B2 : S1024.Idx → EReal) : S4x2048x1024.Idx → EReal := fun i =>
  rowOutK (fun k => X (ix3 (i 0 : Fin 4) (i 1 : Fin 2048) k)) (fun f k => W1 (ix2 f k)) (fun f => B1 (ix1 f))
    (fun d f => W2 (ix2 d f)) (fun d => B2 (ix1 d)) (i 2 : Fin 1024)

variable (m : (ℓ : Loc nD τ sig) → Buf (Elt Ideal) ℓ) (ρ : Dev nD → PrngReg)

/-- The region's output at row `b * 2048 + s`, in the argument arrays. -/
theorem regionOut_apply (c : Dev nD) (b : Fin 4) (s : Fin 2048) (d : Fin 1024) (r : Fin 8192) (hr : r.val = b.val * 2048 + s.val) :
    Blocks.regionOut m c (ix2 r d)
      = kerOut (m ((c : Thread nD τ).loc main_arg0)) (m ((c : Thread nD τ).loc main_arg1)) (m ((c : Thread nD τ).loc main_arg2))
          (m ((c : Thread nD τ).loc main_arg3)) (m ((c : Thread nD τ).loc main_arg4)) (ix3 b s d) := by
  show rowOutK (fun k => V m c main_v1 (ix2 r k)) (fun f k => V m c main_v2 (ix2 f k))
      (fun f => V m c main_v4 (ix2 (0 : Fin 1) f)) (fun d f => V m c main_v3 (ix2 d f))
      (fun d => V m c main_v5 (ix2 (0 : Fin 1) d)) d
    = rowOutK (fun k => m ((c : Thread nD τ).loc main_arg0) (ix3 b s k)) (fun f k => m ((c : Thread nD τ).loc main_arg1) (ix2 f k))
      (fun f => m ((c : Thread nD τ).loc main_arg2) (ix1 f)) (fun d f => m ((c : Thread nD τ).loc main_arg3) (ix2 d f))
      (fun d => m ((c : Thread nD τ).loc main_arg4) (ix1 d)) d
  rw [show (fun k => V m c main_v1 (ix2 r k)) = fun k => m ((c : Thread nD τ).loc main_arg0) (ix3 b s k) from
        funext fun k => Entry.x_apply m c b s k r hr,
      show (fun f k => V m c main_v2 (ix2 f k)) = fun f k => m ((c : Thread nD τ).loc main_arg1) (ix2 f k) from
        funext fun f => funext fun k => Entry.w1_apply m c f k,
      show (fun f => V m c main_v4 (ix2 (0 : Fin 1) f)) = fun f => m ((c : Thread nD τ).loc main_arg2) (ix1 f) from
        funext fun f => Entry.b1_apply m c f,
      show (fun d f => V m c main_v3 (ix2 d f)) = fun d f => m ((c : Thread nD τ).loc main_arg3) (ix2 d f) from
        funext fun d => funext fun f => Entry.w2_apply m c d f,
      show (fun d => V m c main_v5 (ix2 (0 : Fin 1) d)) = fun d => m ((c : Thread nD τ).loc main_arg4) (ix1 d) from
        funext fun d => Entry.b2_apply m c d]

/-- What the host line after the region leaves in the result buffer. -/
theorem result_eq (c : Dev nD) :
    Pipeline.afterTail₀ cfgs (dats m) 0 (V0 m) [hostOps1] c main_v7
      = kerOut (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v7) = _
  after_results
  rw [(Pipeline.withArrays_arr spec0 launch0.win.arr_inj c _ _ 5).trans (Blocks.final m c)]
  funext i
  obtain ⟨b, s, d, rfl⟩ : ∃ (b : Fin 4) (s : Fin 2048) (d : Fin 1024), i = ix3 b s d := ⟨i 0, i 1, i 2, eq_ix3 i⟩
  have hb : b.val < 4 := b.isLt
  have hs : s.val < 2048 := s.isLt
  refine (shapeCast_apply (Blocks.regionOut m c) shapeCasts_S8192x1024_S4x2048x1024 (ix3 b s d)
    (ix2 (⟨b.val * 2048 + s.val, by omega⟩ : Fin 8192) d) ?_).trans (regionOut_apply m c b s d _ rfl)
  rw [Shape.rowMajor_val_three, Shape.rowMajor_val_two]
  rfl

/-- The run: every weakly fair execution terminates with the result at `kerOut` of the arguments and the arguments
    unchanged. -/
theorem run : θ_run defs (onTc (τ := τ) (main (F := Ideal))) ⟨m, fun _ => 0, ρ⟩ fun r => ∀ c : Dev nD,
      r.2.mem ((c : Thread nD τ).loc main_v7)
        = kerOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KRun

end
-- ==== Proof.RefRead.lean ====
/-
  The reference program's result, read at an index.

  The reference contracts the activations `X[b, s, ·]` with the rows of the first weights, adds the first bias, applies
  the gate with the cubic EXPANDED, contracts with the rows of the second weights and adds the second bias.  So at the
  index `(b, s, d)` its result is the row formula `rowOutR` of the row `X[b, s, ·]` at column `d`.  Each operation is read
  at an index by the generated read lemmas; what is written here are the index maps' compositions, coordinate by
  coordinate.
-/
import proofs.«179783_j70214125355102_2_alg».proof.Proof.Gen.ReferenceIdeal.Read
import proofs.«179783_j70214125355102_2_alg».proof.Proof.Gate

noncomputable section

open scoped BigOperators

namespace Cert.ReferenceIdeal.RefRead

open Cert.ReferenceIdeal Cert.ReferenceIdeal.Read Idealize.ShloMosaic Idealize.ShloMosaic.ValueIdx Cert.Gate

/-- The result as a function of the argument arrays: at `(b, s, d)` the expanded-cubic row formula of the row `X[b, s, ·]`. -/
def refOut (X : S4x2048x1024.Idx → EReal) (W1 : S4096x1024.Idx → EReal) (B1 : S4096.Idx → EReal)
    (W2 : S1024x4096.Idx → EReal) (B2 : S1024.Idx → EReal) : S4x2048x1024.Idx → EReal := fun i =>
  rowOutR (fun k => X (ix3 (i 0) (i 1) k)) (fun f k => W1 (ix2 f k)) (fun f => B1 (ix1 f))
    (fun d f => W2 (ix2 d f)) (fun d => B2 (ix1 d)) (i 2)

/-- The second contraction reads the gated value at `(b, s, f)` and the second weights at `(d, f)`. -/
theorem ridx14 (i : S4x2048x1024.Idx) (f : Fin 4096) : ridx_main_v14 i f = ix2 (i 2) f :=
  funext fun a => Fin.ext (by match a with | ⟨0, _⟩ => rfl | ⟨1, _⟩ => rfl)
/-- The first contraction, at `(b, s, f)`, reads the activations at `(b, s, k)` … -/
theorem lidx0 (i : S4x2048x1024.Idx) (f : Fin 4096) (k : Fin 1024) :
    lidx_main_v0 (lidx_main_v14 i f) k = ix3 (i 0) (i 1) k :=
  funext fun a => Fin.ext (by match a with | ⟨0, _⟩ => rfl | ⟨1, _⟩ => rfl | ⟨2, _⟩ => rfl)
/-- … and the first weights at `(f, k)`. -/
theorem ridx0 (i : S4x2048x1024.Idx) (f : Fin 4096) (k : Fin 1024) :
    ridx_main_v0 (lidx_main_v14 i f) k = ix2 f k :=
  funext fun a => Fin.ext (by match a with | ⟨0, _⟩ => rfl | ⟨1, _⟩ => rfl)
/-- The first bias, broadcast twice, is read at `f`. -/
theorem bidx1 (i : S4x2048x1024.Idx) (f : Fin 4096) : idx_main_v1 (idx_main_v2 (lidx_main_v14 i f)) = ix1 f :=
  funext fun a => Fin.ext (by match a with | ⟨0, _⟩ => rfl)
/-- The second bias, broadcast twice, is read at `d`. -/
theorem bidx2 (i : S4x2048x1024.Idx) : idx_main_v15 (idx_main_v16 i) = ix1 (i 2) :=
  funext fun a => Fin.ext (by match a with | ⟨0, _⟩ => rfl)

/-- The reference's last stage is `refOut` of the arguments. -/
theorem val_eq_refOut (X : S4x2048x1024.Idx → EReal) (W1 : S4096x1024.Idx → EReal) (B1 : S4096.Idx → EReal)
    (W2 : S1024x4096.Idx → EReal) (B2 : S1024.Idx → EReal) :
    val_main_v17 (F := Ideal) X W1 B1 W2 B2 = refOut X W1 B1 W2 B2 := by
  funext i
  rw [val_main_v17_apply, val_main_v14_apply, val_main_v16_apply, val_main_v15_apply]
  simp only [val_main_v13_apply, val_main_v12_apply, val_main_v11_apply, val_main_v10_apply, val_main_cst_1_apply,
    val_main_v9_apply, val_main_v8_apply, val_main_cst_0_apply, val_main_v7_apply, val_main_v6_apply, val_main_cst_apply,
    val_main_v5_apply, val_main_v4_apply, val_main_v3_apply, val_main_v2_apply, val_main_v1_apply, val_main_v0_apply,
    ridx14, lidx0, ridx0, bidx1, bidx2, Ideal.mulf_def, Ideal.addf_def, Ideal.ofBits_def]
  rfl

end Cert.ReferenceIdeal.RefRead

end
-- ==== Proof.Finite.lean ====
/-
  The precondition gives real entries.

  The precondition is the conjunction, over the five float arguments, of "every entry's absolute value is below +∞".
  On the extended reals `max x (-x) < ⊤` excludes both infinities, so every entry of every argument is a real number.
  Only the activations, the first weights and the first bias are needed: they make the hidden values real.
-/
import proofs.«179783_j70214125355102_2_alg».proof.Proof.Gen.Pre_finite_inputs
import proofs.«179783_j70214125355102_2_alg».proof.Proof.Gate
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic Idealize.ShloMosaic.ValueIdx Cert.Gate

instance : Subsingleton S_.Idx := ⟨fun _ _ => funext fun d => d.elim0⟩

/-- The word of +∞ denotes the top of the extended reals. -/
theorem ofBits_inf : Ideal.ofBits .f32 0x7F800000#32 = ⊤ := by simp [Ideal.ofBits, Ideal.ieee]

/-- An extended real whose absolute value is below +∞ is a real number. -/
theorem isReal_of_abs_lt {x : EReal} (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- Under the precondition every entry of the activations, of the first weights and of the first bias is real. -/
theorem real_of_pre (X : FVec Ideal S4x2048x1024 .f32) (W1 : FVec Ideal S4096x1024 .f32) (B1 : FVec Ideal S4096 .f32)
    (W2 : FVec Ideal S1024x4096 .f32) (B2 : FVec Ideal S1024 .f32)
    (h : fn (F := Ideal) X W1 B1 W2 B2 = fun _ => 1#1) :
    (∀ i, IsReal (X i)) ∧ (∀ i, IsReal (W1 i)) ∧ (∀ i, IsReal (B1 i)) := by
  have h0 := congrFun h ix0
  dsimp only [fn, fn_part1] at h0
  simp only [andi] at h0
  rw [IntOp.andi_eq_one, IntOp.andi_eq_one, IntOp.andi_eq_one, IntOp.andi_eq_one] at h0
  obtain ⟨⟨⟨⟨h3, h7⟩, h12⟩, -⟩, -⟩ := h0
  exact ⟨fun i => isReal_of_abs_lt (Host.reduce_andi_all _ _ _ _ _ h3 i),
    fun i => isReal_of_abs_lt (Host.reduce_andi_all _ _ _ _ _ h7 i),
    fun i => isReal_of_abs_lt (Host.reduce_andi_all _ _ _ _ _ h12 i)⟩

end Cert.Pre_finite_inputs.Finite

end
-- ==== Proof.lean ====
/-
  A feed-forward block with a cubic-polynomial sigmoid: `out = (h · σ(h)) W2ᵀ + b2` with `h = x W1ᵀ + b1` and
  `σ(h) = 1/2 + h/4 + c h³`, as a tiled kernel against its plain reference, over the extended reals.

  The kernel flattens the activations to 8192 rows, and at each of 32 grid points computes 256 rows of the output from 256
  rows of the activations and the whole weights; it writes the cubic in Horner form, `1/2 + h (1/4 + c h²)`.  The
  reference contracts the three-axis activations directly and writes the cubic expanded, `(1/2 + h/4) + c (h² h)`.  The
  three coefficients are the same binary words on both sides; a change of float format is the identity on the extended
  reals; a matrix product is the sum over the contracted axis on both sides.  So both results, at `(b, s, d)`, are the
  row formula of the row `X[b, s, ·]` at column `d`, in the two forms of the cubic (Proof/KernelRun.lean,
  Proof/RefRead.lean).  The two forms agree on a real hidden value by distributivity (Proof/Gate.lean), which fails at
  the infinities: that is where the precondition is used — finite activations, first weights and first bias make every
  hidden value real (Proof/Finite.lean).  Nothing is asked of the second weights and bias.

  The three frames are the generated frame certificates and the reference's generated run; the idealization rewrote
  nothing, so there is nothing to preserve.
-/
import proofs.«179783_j70214125355102_2_alg».proof.Defs
import proofs.«179783_j70214125355102_2_alg».proof.Proof.Gen.Kernel
import proofs.«179783_j70214125355102_2_alg».proof.Proof.Gen.Kernel.Skeleton
import proofs.«179783_j70214125355102_2_alg».proof.Proof.Gen.Kernel.Launch
import proofs.«179783_j70214125355102_2_alg».proof.Proof.Gen.Kernel.Points
import proofs.«179783_j70214125355102_2_alg».proof.Proof.Gen.Kernel.Frame
import proofs.«179783_j70214125355102_2_alg».proof.Proof.Gen.KernelIdeal
import proofs.«179783_j70214125355102_2_alg».proof.Proof.Gen.KernelIdeal.Skeleton
import proofs.«179783_j70214125355102_2_alg».proof.Proof.Gen.KernelIdeal.Launch
import proofs.«179783_j70214125355102_2_alg».proof.Proof.Gen.KernelIdeal.Points
import proofs.«179783_j70214125355102_2_alg».proof.Proof.Gen.KernelIdeal.Frame
import proofs.«179783_j70214125355102_2_alg».proof.Proof.Gen.ReferenceIdeal
import proofs.«179783_j70214125355102_2_alg».proof.Proof.Gen.ReferenceIdeal.Run
import proofs.«179783_j70214125355102_2_alg».proof.Proof.Gen.ReferenceIdeal.Read
import proofs.«179783_j70214125355102_2_alg».proof.Proof.Gen.Pre_finite_inputs
import proofs.«179783_j70214125355102_2_alg».proof.Proof.KernelRun
import proofs.«179783_j70214125355102_2_alg».proof.Proof.RefRead
import proofs.«179783_j70214125355102_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- And the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- With real activations, first weights and first bias, the expanded-cubic result is the Horner-form result. -/
theorem refOut_eq_kerOut (X : Cert.KernelIdeal.S4x2048x1024.Idx → EReal) (W1 : Cert.KernelIdeal.S4096x1024.Idx → EReal)
    (B1 : Cert.KernelIdeal.S4096.Idx → EReal) (W2 : Cert.KernelIdeal.S1024x4096.Idx → EReal) (B2 : Cert.KernelIdeal.S1024.Idx → EReal)
    (hx : ∀ i, Cert.Gate.IsReal (X i)) (hw : ∀ i, Cert.Gate.IsReal (W1 i)) (hb : ∀ i, Cert.Gate.IsReal (B1 i)) :
    Cert.ReferenceIdeal.RefRead.refOut X W1 B1 W2 B2 = Cert.KernelIdeal.KRun.kerOut X W1 B1 W2 B2 :=
  funext fun _ => (Cert.Gate.rowOut_eq _ _ _ _ _ _ (fun _ => hx _) (fun _ _ => hw _) (fun _ => hb _)).symm

/-- From memories agreeing on the arguments both programs end with the Horner-form result of the arguments: the kernel by
    its run, the reference by its run, its reading at an index, and the agreement of the two forms on real hidden values. -/
theorem algebraic : Cert.algebraic_KernelIdeal_ReferenceIdeal := by
  intro m ρ m' ρ' hpre hagree
  refine ⟨fun c => Cert.KernelIdeal.KRun.kerOut (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.KRun.run m ρ, ?_⟩
  refine (θ_run Cert.ReferenceIdeal.defs _ _).mono (fun _ h c =>
      ⟨(h c).1.trans ((Cert.ReferenceIdeal.Read.val_main_v17_eq _ _ _ _ _).trans ?_), (h c).2⟩)
    (Cert.ReferenceIdeal.Value.run (F := Ideal) m' ρ')
  rw [Cert.ReferenceIdeal.RefRead.val_eq_refOut, (hagree c).1, (hagree c).2.1, (hagree c).2.2.1, (hagree c).2.2.2.1,
    (hagree c).2.2.2.2]
  obtain ⟨hx, hw, hb⟩ := Cert.Pre_finite_inputs.Finite.real_of_pre _ _ _ _ _ (hpre c)
  exact refOut_eq_kerOut _ _ _ _ _ hx hw hb

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
